-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S4096x4096 : Shape := ⟨2, ![4096, 4096]⟩
abbrev S4096x1024 : Shape := ⟨2, ![4096, 1024]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S8388608 .f32) (main_arg1 : FVec F S8388608 .f32) (main_arg2 : FVec F S4096x4096 .f32) (main_arg3 : FVec F S4096x1024 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S8388608 : Shape := ⟨1, ![8388608]⟩
abbrev S4096x4096 : Shape := ⟨2, ![4096, 4096]⟩
abbrev S4096x1024 : Shape := ⟨2, ![4096, 1024]⟩
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S512x4096 : Shape := ⟨2, ![512, 4096]⟩
abbrev S_ : Shape := ⟨0, ![]⟩

abbrev nBuf : Space → Nat
  | .hbm => 28
  | .vmem => 12
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S4096x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S1x1, .f32⟩
  | .local _ .vmem, ⟨6, _⟩ => ⟨S512x4096, .f32⟩
  | .local _ .vmem, ⟨7, _⟩ => ⟨S512x4096, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S1x1, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc2_sem0_0 : DmaSem sig := 9
abbrev cc2_sem0_1 : DmaSem sig := 10
abbrev cc2_sem1_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  shapeCasts_S8388608_S8192x1024 : S8388608.ShapeCasts S8192x1024
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  natLt_1_32 : 1 < 32
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg3) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S8388608 : Shape := ⟨1, ![8388608]⟩
abbrev S4096x4096 : Shape := ⟨2, ![4096, 4096]⟩
abbrev S4096x1024 : Shape := ⟨2, ![4096, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S4096x4096, .f32⟩
  | .hbm, ⟨3, _⟩ => ⟨S4096x1024, .f32⟩
  | .hbm, ⟨4, _⟩ => ⟨S8388608, .f32⟩
  | .hbm, ⟨5, _⟩ => ⟨S_, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S_, .f32⟩
  | .hbm, ⟨13, _⟩ => ⟨S8388608, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8388608, .f32⟩
  | .hbm, ⟨43, _⟩ => ⟨S8388608, .f32⟩
  | .hbm, ⟨44, _⟩ => ⟨S_, .f32⟩
  | .hbm, ⟨45, _⟩ => ⟨S8388608, .f32⟩
  | .hbm, ⟨46, _⟩ => ⟨S8388608, .i1⟩
  | .hbm, ⟨47, _⟩ => ⟨S8388608, .i32⟩
  | .hbm, ⟨48, _⟩ => ⟨S_, .i32⟩
  | .hbm, ⟨49, _⟩ => ⟨S_, .i32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_cst_9 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel
  reducesTo_S4096x4096_S_d0_1 : S4096x4096.ReducesTo [0, 1] S_
  reducesTo_S4096x1024_S_d0_1 : S4096x1024.ReducesTo [0, 1] S_
  natLt_1_32 : 1 < 32

variable [Facts₀]

class Facts : Prop extends Facts₀ where

variable [Facts]
-- ==== Proof.RunValues.lean ====
/-
  The run of the idealized kernel program with its two results kept.

  The program is five stretches in a row: two reshapes on the host, three grid regions, eighteen scalar operations on
  the host. The generated frame certificate follows the contents of every unscoped buffer from stretch to stretch
  (its valuations W0 … W5) and then forgets everything except the four arguments. Here the same run is read once more
  at the two result buffers: after every weakly fair execution each result buffer holds what the last valuation W5
  assigns to it, and the four arguments are as launched.
-/
import proofs.«102672_j31877247271387_1_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; afterwards the float result and the
    integer result hold what the last boundary valuation assigns them, and the arguments are unchanged. -/
theorem run_results : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_v17) = W5 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       h c _ (mem_uc main_v17 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.RunValues

end
-- ==== Proof.Region0.lean ====
/-
  Region 0 (the loss and the accuracy count): what its two [1, 1] outputs hold when the region ends.

  The grid has 16 points; point t sees rows 512·t … 512·t + 511 of the two [8192, 1024] inputs. Both outputs sit on one
  block that never moves, are zeroed at the first point, and are written back after the last point only. So after point n
  the first output's buffer holds the body's accumulation step applied n + 1 times starting from the zero block — one
  step adds the block's loss total to what the buffer held — and the second output's the same with the block's count.
  The steps are kept as the body's own pure terms here; what they compute on the extended reals is read elsewhere.
-/
import proofs.«102672_j31877247271387_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One accumulation step of the loss: the buffer's contents plus the block's loss total. -/
abbrev lossStep (x0 x1 : Vec F S512x1024 .f32) (acc : Vec F S1x1 .f32) : Vec F S1x1 .f32 := k0_pay6 x0 x1 acc
/-- One accumulation step of the count: the buffer's contents plus the block's count. -/
abbrev countStep (x0 x1 : Vec F S512x1024 .f32) (acc : Vec F S1x1 .f32) : Vec F S1x1 .f32 := k0_pay1 (k0_pay7 x0 x1) acc

/-- A later point leaves, in the loss buffer holding `xo2`, one step over `xo2`. -/
theorem loss_later (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S512x1024 .f32) (xo2 xo3 : Vec F S1x1 .f32) :
    out0_B_2 c i a1 h1 a2 h2 a3 h3 a4 h4 hc x0 x1 xo2 xo3 = lossStep x0 x1 xo2 := by
  unfold out0_B_2
  rw [View.read_writes_eq_canon _ _ _ (cover0_B_2 c i a1 h1 a2 h2 a3 h3 a4 h4 hc x0 x1 xo2 xo3)]
  unfold kernelRun0_B
  dsimp only
  rw [View.canon_unit_zero hz]
  simp only [View.readAt_eq_ld, h1.read_unread, h2.read_unread, h3.read_unread, View.ld_unit_zero (S := S512x1024) hz,
    View.ld_unit_zero (S := S1x1) hz]

/-- A later point leaves, in the count buffer holding `xo3`, one step over `xo3`. -/
theorem count_later (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S512x1024 .f32) (xo2 xo3 : Vec F S1x1 .f32) :
    out0_B_3 c i a1 h1 a2 h2 a3 h3 a4 h4 hc x0 x1 xo2 xo3 = countStep x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S512x1024) hz,
    View.ld_unit_zero (S := S1x1) hz]

/-- The first point zeroes the loss buffer, reads the zero back, and leaves one step over the zero block. -/
theorem loss_first (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S512x1024 .f32) :
    out0_A_2 c i a1 h1 a2 h2 a3 h3 a4 h4 hc x0 x1 = lossStep x0 x1 k0_pay2 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x1024) hz,
    View.ld_unit_zero (S := S1x1) hz]

/-- The first point zeroes the count buffer, reads the zero back, and leaves one step over the zero block. -/
theorem count_first (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S512x1024 .f32) :
    out0_A_3 c i a1 h1 a2 h2 a3 h3 a4 h4 hc x0 x1 = countStep x0 x1 k0_pay3 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x1024) hz,
    View.ld_unit_zero (S := S1x1) hz]

/-- The loss buffer after point `n`: steps over the blocks of points 0 … n, from the zero block. -/
def lossAfter (c : Dev nD) : (n : ℕ) → n < cfg0.N → Vec F S1x1 .f32
  | 0, h => lossStep (iblk0 V c 0 ⟨0, h⟩) (iblk0 V c 1 ⟨0, h⟩) k0_pay2
  | n + 1, h => lossStep (iblk0 V c 0 ⟨n + 1, h⟩) (iblk0 V c 1 ⟨n + 1, h⟩) (lossAfter c n (Nat.lt_of_succ_lt h))

/-- The count buffer after point `n`, likewise. -/
def countAfter (c : Dev nD) : (n : ℕ) → n < cfg0.N → Vec F S1x1 .f32
  | 0, h => countStep (iblk0 V c 0 ⟨0, h⟩) (iblk0 V c 1 ⟨0, h⟩) k0_pay3
  | n + 1, h => countStep (iblk0 V c 0 ⟨n + 1, h⟩) (iblk0 V c 1 ⟨n + 1, h⟩) (countAfter c n (Nat.lt_of_succ_lt h))

/-- What the two output buffers hold after point `n` is the pair of running values, by induction on the point. -/
theorem outsAt_eq (c : Dev nD) : ∀ (n : ℕ) (h : n < cfg0.N), outsAt0 V c n h = (lossAfter V c n h, countAfter V c n h)
  | 0, h => by
    rw [outsAt0_A V c ⟨0, h⟩ rfl, loss_first, count_first]
    rfl
  | n + 1, h => by
    have hN : cfg0.N = 16 := N_0
    have hB : ¬(⟨n + 1, h⟩ : Fin cfg0.N).val % 16 = 0 := by dsimp only; omega
    rw [outsAt0_B V c ⟨n + 1, h⟩ hB, loss_later, count_later]
    show (lossStep _ _ (outsAt0 V c n _).1, countStep _ _ (outsAt0 V c n _).2) = _
    rw [outsAt_eq c n]
    rfl

/-- The last point. -/
abbrev tLast : Fin cfg0.N := t0_15

/-- The loss total and the count when the region ends. -/
abbrev lossFinal (c : Dev nD) : Vec F S1x1 .f32 := lossAfter V c 15 (by rw [show cfg0.N = 16 from N_0]; decide)
abbrev countFinal (c : Dev nD) : Vec F S1x1 .f32 := countAfter V c 15 (by rw [show cfg0.N = 16 from N_0]; decide)

/-- The only write-back of the loss, after the last point, writes the final running value: the [1, 1] block read
    through zero offsets is the whole array. -/
theorem loss_flushed (c : Dev nD) (t : Fin cfg0.N) (hf : (cfg0.win 2).flush t = true) :
    (dat0 V c).flushed 2 t = ((cfg0.win 2).blk t).view.read (Elt F) (lossFinal V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_eq]
  have hz' : (fun a => win0_2.index t0_15 a * main_v2_0.ty.shape.size a) = fun _ => 0 := funext fun a => by fin_cases a <;> decide
  exact (Memref.read_access_unit_zero (Elt F) main_v2_0 hz' (fun a => by rw [congrFun hz' a]; simp) (lossFinal V c)).symm

/-- The same for the count. -/
theorem count_flushed (c : Dev nD) (t : Fin cfg0.N) (hf : (cfg0.win 3).flush t = true) :
    (dat0 V c).flushed 3 t = ((cfg0.win 3).blk t).view.read (Elt F) (countFinal V c) := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3, outsAt_eq]
  have hz' : (fun a => win0_3.index t0_15 a * main_v2_1.ty.shape.size a) = fun _ => 0 := funext fun a => by fin_cases a <;> decide
  exact (Memref.read_access_unit_zero (Elt F) main_v2_1 hz' (fun a => by rw [congrFun hz' a]; simp) (countFinal V c)).symm

/-- So the loss array ends holding the running value after the last point: that point's block covers the array. -/
theorem loss_array (c : Dev nD) : (dat0 V c).arrAt 2 cfg0.N = lossFinal V c :=
  (dat0 V c).arrAt_eq_of_cover 2 (lossFinal V c) (loss_flushed V c) fun i =>
    ⟨t0_15, (flush0_2 t0_15).mpr rfl, by
      show i ∈ ((View.whole main_v2_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- And the count array likewise. -/
theorem count_array (c : Dev nD) : (dat0 V c).arrAt 3 cfg0.N = countFinal V c :=
  (dat0 V c).arrAt_eq_of_cover 3 (countFinal V c) (count_flushed V c) fun i =>
    ⟨t0_15, (flush0_3 t0_15).mpr rfl, by
      show i ∈ ((View.whole main_v2_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

end Cert.KernelIdeal.Region0

end
-- ==== Proof.Region1.lean ====
/-
  Region 1 (the sum of squares of the first weight matrix): what its [1, 1] output holds when the region ends.

  The grid has 8 points; point t sees rows 512·t … 512·t + 511 of the matrix. The output sits on one block that never
  moves, is zeroed at the first point, and is written back after the last point only. So after point n its buffer holds
  the body's accumulation step — the buffer's contents plus the block's total of squares — applied n + 1 times from
  the zero block. The step is kept as the body's own pure term here.
-/
import proofs.«102672_j31877247271387_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One accumulation step: the buffer's contents plus the block's total of squares. -/
abbrev sqStep (x0 : Vec F S512x4096 .f32) (acc : Vec F S1x1 .f32) : Vec F S1x1 .f32 := k1_pay2 x0 acc

/-- A later point leaves, in the buffer holding `xo`, one step over `xo`. -/
theorem sq_later (c : Dev nD) (i : grid1.Coords) (a1 : Memref sig .tc .vmem S512x4096 .f32) (h1 : a1.IsWhole)
    (a2 : Memref sig .tc .vmem S1x1 .f32) (h2 : a2.IsWhole) (hc : ¬cond1_0 i)
    (x0 : Vec F S512x4096 .f32) (xo : Vec F S1x1 .f32) :
    out1_B_1 c i a1 h1 a2 h2 hc x0 xo = sqStep x0 xo := by
  unfold out1_B_1
  rw [View.read_writes_eq_canon _ _ _ (cover1_B_1 c i a1 h1 a2 h2 hc x0 xo)]
  unfold kernelRun1_B
  dsimp only
  rw [View.canon_unit_zero hz]
  simp only [View.readAt_eq_ld, h1.read_unread, h2.read_unread, View.ld_unit_zero (S := S512x4096) hz,
    View.ld_unit_zero (S := S1x1) hz]

/-- The first point zeroes the buffer, reads the zero back, and leaves one step over the zero block. -/
theorem sq_first (c : Dev nD) (i : grid1.Coords) (a1 : Memref sig .tc .vmem S512x4096 .f32) (h1 : a1.IsWhole)
    (a2 : Memref sig .tc .vmem S1x1 .f32) (h2 : a2.IsWhole) (hc : cond1_0 i)
    (x0 : Vec F S512x4096 .f32) :
    out1_A_1 c i a1 h1 a2 h2 hc x0 = sqStep x0 k1_pay1 := by
  unfold out1_A_1
  rw [View.read_writes_eq_canon _ _ _ (cover1_A_1 c i a1 h1 a2 h2 hc x0)]
  unfold kernelRun1_A
  dsimp only
  sl_unfold_words
  rw [View.canon_cons_unit_zero (S := S1x1) hz, View.readCov_unit_zero (S := S1x1) _ hz]
  simp only [View.readAt_eq_ld, h1.read_unread, View.ld_unit_zero (S := S512x4096) hz,
    View.ld_unit_zero (S := S1x1) hz]

/-- The buffer after point `n`: steps over the blocks of points 0 … n, from the zero block. -/
def sqAfter (c : Dev nD) : (n : ℕ) → n < cfg1.N → Vec F S1x1 .f32
  | 0, h => sqStep (iblk1 V c 0 ⟨0, h⟩) k1_pay1
  | n + 1, h => sqStep (iblk1 V c 0 ⟨n + 1, h⟩) (sqAfter c n (Nat.lt_of_succ_lt h))

/-- What the output buffer holds after point `n` is the running value, by induction on the point. -/
theorem outsAt_eq (c : Dev nD) : ∀ (n : ℕ) (h : n < cfg1.N), outsAt1 V c n h = sqAfter V c n h
  | 0, h => (outsAt1_A V c ⟨0, h⟩ rfl).trans (sq_first ..)
  | n + 1, h => by
    have hN : cfg1.N = 8 := N_1
    have hB : ¬(⟨n + 1, h⟩ : Fin cfg1.N).val % 8 = 0 := by dsimp only; omega
    rw [outsAt1_B V c ⟨n + 1, h⟩ hB, sq_later]
    show sqStep _ (outsAt1 V c n _) = sqStep _ (sqAfter V c n _)
    rw [outsAt_eq c n]

/-- The total of squares when the region ends. -/
abbrev sqFinal (c : Dev nD) : Vec F S1x1 .f32 := sqAfter V c 7 (by rw [show cfg1.N = 8 from N_1]; decide)

/-- The only write-back, after the last point, writes the final running value: the [1, 1] block read through zero
    offsets is the whole array. -/
theorem sq_flushed (c : Dev nD) (t : Fin cfg1.N) (hf : (cfg1.win 1).flush t = true) :
    (dat1 V c).flushed 1 t = ((cfg1.win 1).blk t).view.read (Elt F) (sqFinal V c) := by
  have hN : cfg1.N = 8 := N_1
  have h7 : t.val = 7 := by have := (flush1_1 t).mp hf; have := t.isLt; omega
  obtain rfl : t = t1_7 := Fin.ext h7
  show (cfg1.win 1).cut (grid1.coords t1_7) ((dat1 V c).after 1 t1_7) = _
  rw [after1_1, outsAt_eq]
  have hz' : (fun a => win1_1.index t1_7 a * main_v3.ty.shape.size a) = fun _ => 0 := funext fun a => by fin_cases a <;> decide
  exact (Memref.read_access_unit_zero (Elt F) main_v3 hz' (fun a => by rw [congrFun hz' a]; simp) (sqFinal V c)).symm

/-- So the output array ends holding the running value after the last point: that point's block covers the array. -/
theorem sq_array (c : Dev nD) : (dat1 V c).arrAt 1 cfg1.N = sqFinal V c :=
  (dat1 V c).arrAt_eq_of_cover 1 (sqFinal V c) (sq_flushed V c) fun i =>
    ⟨t1_7, (flush1_1 t1_7).mpr rfl, by
      show i ∈ ((View.whole main_v3).slice (win1_1.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_1.index t1_7 0 * win1_1.size 0 ≤ (i 0 : Nat) ∧ (i 0 : Nat) < win1_1.index t1_7 0 * win1_1.size 0 + win1_1.xsize (grid1.coords t1_7) 0
                  rw [show win1_1.index t1_7 0 * win1_1.size 0 = 0 from by decide +kernel, show win1_1.xsize (grid1.coords t1_7) 0 = 1 from by decide +kernel]; omega
      | ⟨1, _⟩ => show win1_1.index t1_7 1 * win1_1.size 1 ≤ (i 1 : Nat) ∧ (i 1 : Nat) < win1_1.index t1_7 1 * win1_1.size 1 + win1_1.xsize (grid1.coords t1_7) 1
                  rw [show win1_1.index t1_7 1 * win1_1.size 1 = 0 from by decide +kernel, show win1_1.xsize (grid1.coords t1_7) 1 = 1 from by decide +kernel]; omega⟩

end Cert.KernelIdeal.Region1

end
-- ==== Proof.Region2.lean ====
/-
  Region 2 (the sum of squares of the second weight matrix): what its [1, 1] output holds when the region ends.

  The grid has 8 points; point t sees rows 512·t … 512·t + 511 of the matrix. The output sits on one block that never
  moves, is zeroed at the first point, and is written back after the last point only. So after point n its buffer holds
  the body's accumulation step — the buffer's contents plus the block's total of squares — applied n + 1 times from
  the zero block. The step is kept as the body's own pure term here.
-/
import proofs.«102672_j31877247271387_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- One accumulation step: the buffer's contents plus the block's total of squares. -/
abbrev sqStep (x0 : Vec F S512x1024 .f32) (acc : Vec F S1x1 .f32) : Vec F S1x1 .f32 := k2_pay2 x0 acc

/-- A later point leaves, in the buffer holding `xo`, one step over `xo`. -/
theorem sq_later (c : Dev nD) (i : grid2.Coords) (a1 : Memref sig .tc .vmem S512x1024 .f32) (h1 : a1.IsWhole)
    (a2 : Memref sig .tc .vmem S1x1 .f32) (h2 : a2.IsWhole) (hc : ¬cond2_0 i)
    (x0 : Vec F S512x1024 .f32) (xo : Vec F S1x1 .f32) :
    out2_B_1 c i a1 h1 a2 h2 hc x0 xo = sqStep x0 xo := by
  unfold out2_B_1
  rw [View.read_writes_eq_canon _ _ _ (cover2_B_1 c i a1 h1 a2 h2 hc x0 xo)]
  unfold kernelRun2_B
  dsimp only
  rw [View.canon_unit_zero hz]
  simp only [View.readAt_eq_ld, h1.read_unread, h2.read_unread, View.ld_unit_zero (S := S512x1024) hz,
    View.ld_unit_zero (S := S1x1) hz]

/-- The first point zeroes the buffer, reads the zero back, and leaves one step over the zero block. -/
theorem sq_first (c : Dev nD) (i : grid2.Coords) (a1 : Memref sig .tc .vmem S512x1024 .f32) (h1 : a1.IsWhole)
    (a2 : Memref sig .tc .vmem S1x1 .f32) (h2 : a2.IsWhole) (hc : cond2_0 i)
    (x0 : Vec F S512x1024 .f32) :
    out2_A_1 c i a1 h1 a2 h2 hc x0 = sqStep x0 k2_pay1 := by
  unfold out2_A_1
  rw [View.read_writes_eq_canon _ _ _ (cover2_A_1 c i a1 h1 a2 h2 hc x0)]
  unfold kernelRun2_A
  dsimp only
  sl_unfold_words
  rw [View.canon_cons_unit_zero (S := S1x1) hz, View.readCov_unit_zero (S := S1x1) _ hz]
  simp only [View.readAt_eq_ld, h1.read_unread, View.ld_unit_zero (S := S512x1024) hz,
    View.ld_unit_zero (S := S1x1) hz]

/-- The buffer after point `n`: steps over the blocks of points 0 … n, from the zero block. -/
def sqAfter (c : Dev nD) : (n : ℕ) → n < cfg2.N → Vec F S1x1 .f32
  | 0, h => sqStep (iblk2 V c 0 ⟨0, h⟩) k2_pay1
  | n + 1, h => sqStep (iblk2 V c 0 ⟨n + 1, h⟩) (sqAfter c n (Nat.lt_of_succ_lt h))

/-- What the output buffer holds after point `n` is the running value, by induction on the point. -/
theorem outsAt_eq (c : Dev nD) : ∀ (n : ℕ) (h : n < cfg2.N), outsAt2 V c n h = sqAfter V c n h
  | 0, h => (outsAt2_A V c ⟨0, h⟩ rfl).trans (sq_first ..)
  | n + 1, h => by
    have hN : cfg2.N = 8 := N_2
    have hB : ¬(⟨n + 1, h⟩ : Fin cfg2.N).val % 8 = 0 := by dsimp only; omega
    rw [outsAt2_B V c ⟨n + 1, h⟩ hB, sq_later]
    show sqStep _ (outsAt2 V c n _) = sqStep _ (sqAfter V c n _)
    rw [outsAt_eq c n]

/-- The total of squares when the region ends. -/
abbrev sqFinal (c : Dev nD) : Vec F S1x1 .f32 := sqAfter V c 7 (by rw [show cfg2.N = 8 from N_2]; decide)

/-- The only write-back, after the last point, writes the final running value: the [1, 1] block read through zero
    offsets is the whole array. -/
theorem sq_flushed (c : Dev nD) (t : Fin cfg2.N) (hf : (cfg2.win 1).flush t = true) :
    (dat2 V c).flushed 1 t = ((cfg2.win 1).blk t).view.read (Elt F) (sqFinal V c) := by
  have hN : cfg2.N = 8 := N_2
  have h7 : t.val = 7 := by have := (flush2_1 t).mp hf; have := t.isLt; omega
  obtain rfl : t = t2_7 := Fin.ext h7
  show (cfg2.win 1).cut (grid2.coords t2_7) ((dat2 V c).after 1 t2_7) = _
  rw [after2_1, outsAt_eq]
  have hz' : (fun a => win2_1.index t2_7 a * main_v4.ty.shape.size a) = fun _ => 0 := funext fun a => by fin_cases a <;> decide
  exact (Memref.read_access_unit_zero (Elt F) main_v4 hz' (fun a => by rw [congrFun hz' a]; simp) (sqFinal V c)).symm

/-- So the output array ends holding the running value after the last point: that point's block covers the array. -/
theorem sq_array (c : Dev nD) : (dat2 V c).arrAt 1 cfg2.N = sqFinal V c :=
  (dat2 V c).arrAt_eq_of_cover 1 (sqFinal V c) (sq_flushed V c) fun i =>
    ⟨t2_7, (flush2_1 t2_7).mpr rfl, by
      show i ∈ ((View.whole main_v4).slice (win2_1.rect t2_7)).set
      rw [View.set_slice_whole, Rect.mem_set_unit]
      intro a
      have h0 : (i 0 : Nat) < 1 := (i 0).isLt
      have h1 : (i 1 : Nat) < 1 := (i 1).isLt
      match a with
      | ⟨0, _⟩ => show win2_1.index t2_7 0 * win2_1.size 0 ≤ (i 0 : Nat) ∧ (i 0 : Nat) < win2_1.index t2_7 0 * win2_1.size 0 + win2_1.xsize (grid2.coords t2_7) 0
                  rw [show win2_1.index t2_7 0 * win2_1.size 0 = 0 from by decide +kernel, show win2_1.xsize (grid2.coords t2_7) 0 = 1 from by decide +kernel]; omega
      | ⟨1, _⟩ => show win2_1.index t2_7 1 * win2_1.size 1 ≤ (i 1 : Nat) ∧ (i 1 : Nat) < win2_1.index t2_7 1 * win2_1.size 1 + win2_1.xsize (grid2.coords t2_7) 1
                  rw [show win2_1.index t2_7 1 * win2_1.size 1 = 0 from by decide +kernel, show win2_1.xsize (grid2.coords t2_7) 1 = 1 from by decide +kernel]; omega⟩

end Cert.KernelIdeal.Region2

end
-- ==== Proof.Combine.lean ====
/-
  The scalar arithmetic both programs end with.

  From the loss total `a` and the two totals of squares `b` and `d` both programs form
  `-(a / 2²³) + ((c₁ · b) / 2²⁴ + (c₂ · d) / 2²⁴)` with the same two single-precision constants `c₁` (the float next to 0.01)
  and `c₂` (the float next to 0.001), in the same order of operations. It is stated once, so that the two programs'
  results are compared by comparing `a`, `b` and `d` only; the arithmetic itself is never opened.
-/
import Idealize.ShloMosaic.PureOps.Ideal

noncomputable section

namespace Cert.Combine

open Idealize.ShloMosaic

variable {F : FTy → Type} [FloatOps F]

/-- The final scalar: minus the mean loss, plus the two scaled totals of squares. -/
def combine (a b d : FVec F ⟨0, ![]⟩ .f32) : FVec F ⟨0, ![]⟩ .f32 :=
  addf (Host.negf (Host.divf a (constant (F := F) ⟨0, ![]⟩ .f32 0x4B000000#32)))
    (addf (Host.divf (mulf (constant (F := F) ⟨0, ![]⟩ .f32 0x3C23D70A#32) b) (constant (F := F) ⟨0, ![]⟩ .f32 0x4B800000#32))
      (Host.divf (mulf (constant (F := F) ⟨0, ![]⟩ .f32 0x3A83126F#32) d) (constant (F := F) ⟨0, ![]⟩ .f32 0x4B800000#32)))

end Cert.Combine

end
-- ==== Proof.Tail.lean ====
/-
  The two results of the idealized kernel program as terms of the three regions' final values.

  After the last region the host reshapes each [1, 1] total to a scalar and combines the three float totals by the
  scalar arithmetic `Combine.combine`; the count is reshaped and converted to a signed 32-bit integer. Each region's
  output array is read back through the later regions (which do not touch it) to what that region left: the running
  value after its last point.
-/
import proofs.«102672_j31877247271387_1_alg».proof.Proof.RunValues
import proofs.«102672_j31877247271387_1_alg».proof.Proof.Region0
import proofs.«102672_j31877247271387_1_alg».proof.Proof.Region1
import proofs.«102672_j31877247271387_1_alg».proof.Proof.Region2
import proofs.«102672_j31877247271387_1_alg».proof.Proof.Combine
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]
variable (m : (ℓ : Loc nD τ sig) → Buf (Elt F) ℓ) (ρ : Dev nD → PrngReg)

/-- Region 0's loss array, read after the last region, is the loss running value after point 15. -/
theorem loss_kept (c : Dev nD) :
    (W4 m ρ c (Proc.devRef .tc main_v2_0) : S1x1.Idx → F .f32) = Region0.lossFinal (V1 m ρ) c :=
  (W4_of_ne m ρ c main_v2_0 (by decide)).trans ((W3_of_ne m ρ c main_v2_0 (by decide)).trans
    ((W2_arr m ρ c 2).trans (Region0.loss_array (V1 m ρ) c)))

/-- Region 0's count array, likewise. -/
theorem count_kept (c : Dev nD) :
    (W4 m ρ c (Proc.devRef .tc main_v2_1) : S1x1.Idx → F .f32) = Region0.countFinal (V1 m ρ) c :=
  (W4_of_ne m ρ c main_v2_1 (by decide)).trans ((W3_of_ne m ρ c main_v2_1 (by decide)).trans
    ((W2_arr m ρ c 3).trans (Region0.count_array (V1 m ρ) c)))

/-- Region 1's array of the first total of squares, read after the last region. -/
theorem sq1_kept (c : Dev nD) :
    (W4 m ρ c (Proc.devRef .tc main_v3) : S1x1.Idx → F .f32) = Region1.sqFinal (V2 m ρ) c :=
  (W4_of_ne m ρ c main_v3 (by decide)).trans ((W3_arr m ρ c 1).trans (Region1.sq_array (V2 m ρ) c))

/-- Region 2's array of the second total of squares. -/
theorem sq2_kept (c : Dev nD) :
    (W4 m ρ c (Proc.devRef .tc main_v4) : S1x1.Idx → F .f32) = Region2.sqFinal (V3 m ρ) c :=
  (W4_arr m ρ c 1).trans (Region2.sq_array (V3 m ρ) c)

/-- The float result: the scalar arithmetic of the three totals, each reshaped from [1, 1] to a scalar. -/
theorem float_result (c : Dev nD) :
    (W5 m ρ c (Proc.devRef .tc main_v15) : S_.Idx → F .f32)
      = Cert.Combine.combine (shapeCast S_ (Region0.lossFinal (V1 m ρ) c) shapeCasts_S1x1_S_)
          (shapeCast S_ (Region1.sqFinal (V2 m ρ) c) shapeCasts_S1x1_S_)
          (shapeCast S_ (Region2.sqFinal (V3 m ρ) c) shapeCasts_S1x1_S_) := by
  rw [← loss_kept m ρ c, ← sq1_kept m ρ c, ← sq2_kept m ρ c]
  show StableHlo.after hostOps3 (W4 m ρ c) (Proc.devRef .tc main_v15) = _
  after_results
  rfl

/-- The integer result: the count total, reshaped to a scalar and converted to a signed 32-bit integer. -/
theorem int_result (c : Dev nD) :
    (W5 m ρ c (Proc.devRef .tc main_v17) : S_.Idx → BitVec 32)
      = fptosi 32 (shapeCast S_ (Region0.countFinal (V1 m ρ) c) shapeCasts_S1x1_S_) := by
  rw [← count_kept m ρ c]
  show StableHlo.after hostOps3 (W4 m ρ c) (Proc.devRef .tc main_v17) = _
  after_results
  rfl

end Cert.KernelIdeal.Tail

end
-- ==== Proof.Blocks.lean ====
/-
  The regions' input blocks, entry by entry, in terms of the program's arguments.

  Region 0 reads the two flat arguments through the host's reshape to [8192, 1024]: entry (r, k) of the block of point
  `t` is row 512·t + r, lane k of the reshaped array, that is position (512·t + r)·1024 + k of the flat argument.
  Regions 1 and 2 read the weight matrices directly: entry (r, k) of the block of point `t` is entry (512·t + r, k).
-/
import proofs.«102672_j31877247271387_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.ValueIdx

namespace Cert.KernelIdeal.Blocks

open Cert.KernelIdeal Cert.KernelIdeal.Gen

variable {F : FTy → Type} [FloatOps F]
variable (m : (ℓ : Loc nD τ sig) → Buf (Elt F) ℓ) (ρ : Dev nD → PrngReg)

/-- Every input window's block index at point `t` is (t, 0): decided over each grid. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx2_0 : ∀ t : Fin cfg2.N, win2_0.index t 0 = t.val ∧ win2_0.index t 1 = 0 :=
  (by decide +kernel : ∀ t : Fin grid2.N, win2_0.index t 0 = t.val ∧ win2_0.index t 1 = 0)

/-- Region 0 finds its first input at the first argument reshaped to [8192, 1024]. -/
theorem entry0_0 (c : Dev nD) : (V1 m ρ c main_v0 : S8192x1024.Idx → F .f32)
    = shapeCast S8192x1024 (m ((c : Thread nD τ).loc main_arg0)) shapeCasts_S8388608_S8192x1024 := by
  show StableHlo.after hostOps0 (W0 m ρ c) (Proc.devRef .tc main_v0) = _
  after_results
  rfl

/-- … and its second input at the second argument reshaped. -/
theorem entry0_1 (c : Dev nD) : (V1 m ρ c main_v1 : S8192x1024.Idx → F .f32)
    = shapeCast S8192x1024 (m ((c : Thread nD τ).loc main_arg1)) shapeCasts_S8388608_S8192x1024 := by
  show StableHlo.after hostOps0 (W0 m ρ c) (Proc.devRef .tc main_v1) = _
  after_results
  rfl

/-- Region 1 finds its input at the third argument: nothing before it writes that buffer. -/
theorem entry1 (c : Dev nD) : (V2 m ρ c main_arg2 : S4096x4096.Idx → F .f32) = m ((c : Thread nD τ).loc main_arg2) :=
  (W2_of_ne m ρ c main_arg2 (by decide)).trans (by
    show StableHlo.after hostOps0 (W0 m ρ c) (Proc.devRef .tc main_arg2) = _
    after_results)

/-- Region 2 finds its input at the fourth argument. -/
theorem entry2 (c : Dev nD) : (V3 m ρ c main_arg3 : S4096x1024.Idx → F .f32) = m ((c : Thread nD τ).loc main_arg3) :=
  (W3_of_ne m ρ c main_arg3 (by decide)).trans ((W2_of_ne m ρ c main_arg3 (by decide)).trans (by
    show StableHlo.after hostOps0 (W0 m ρ c) (Proc.devRef .tc main_arg3) = _
    after_results))

/-- Entry (r, k) of region 0's first input block at point `t`. -/
theorem block0_0 (c : Dev nD) (t : Fin cfg0.N) (r : Fin 512) (k : Fin 1024) :
    iblk0 (V1 m ρ) c 0 t (ix2 r k) = m ((c : Thread nD τ).loc main_arg0)
      (ix1 (⟨(512 * t.val + r.val) * 1024 + k.val, by
        have hN : cfg0.N = 16 := N_0
        have := t.isLt; have := r.isLt; have := k.isLt; omega⟩ : Fin 8388608)) := by
  obtain ⟨hi0, hi1⟩ := idx0_0 t
  unfold iblk0
  rw [View.read_apply]
  show V1 m ρ c main_v0 _ = _
  refine (congrFun (entry0_0 m ρ c) _).trans (shapeCast_apply _ _ _ _ ?_)
  refine (Shape.rowMajor_val_one (d := ![8388608]) _).trans
    ((?_ : _ = _).trans (Shape.rowMajor_val_two (d := ![8192, 1024]) _).symm)
  show (512 * t.val + r.val) * 1024 + k.val
    = (win0_0.index t 0 * 512 + 1 * r.val) * 1024 + (win0_0.index t 1 * 1024 + 1 * k.val)
  rw [hi0, hi1]; omega

/-- Entry (r, k) of region 0's second input block at point `t`. -/
theorem block0_1 (c : Dev nD) (t : Fin cfg0.N) (r : Fin 512) (k : Fin 1024) :
    iblk0 (V1 m ρ) c 1 t (ix2 r k) = m ((c : Thread nD τ).loc main_arg1)
      (ix1 (⟨(512 * t.val + r.val) * 1024 + k.val, by
        have hN : cfg0.N = 16 := N_0
        have := t.isLt; have := r.isLt; have := k.isLt; omega⟩ : Fin 8388608)) := by
  obtain ⟨hi0, hi1⟩ := idx0_1 t
  unfold iblk0
  rw [View.read_apply]
  show V1 m ρ c main_v1 _ = _
  refine (congrFun (entry0_1 m ρ c) _).trans (shapeCast_apply _ _ _ _ ?_)
  refine (Shape.rowMajor_val_one (d := ![8388608]) _).trans
    ((?_ : _ = _).trans (Shape.rowMajor_val_two (d := ![8192, 1024]) _).symm)
  show (512 * t.val + r.val) * 1024 + k.val
    = (win0_1.index t 0 * 512 + 1 * r.val) * 1024 + (win0_1.index t 1 * 1024 + 1 * k.val)
  rw [hi0, hi1]; omega

/-- Entry (r, k) of region 1's input block at point `t`. -/
theorem block1 (c : Dev nD) (t : Fin cfg1.N) (r : Fin 512) (k : Fin 4096) :
    iblk1 (V2 m ρ) c 0 t (ix2 r k) = m ((c : Thread nD τ).loc main_arg2)
      (ix2 (⟨512 * t.val + r.val, by
        have hN : cfg1.N = 8 := N_1
        have := t.isLt; have := r.isLt; omega⟩ : Fin 4096) k) := by
  obtain ⟨hi0, hi1⟩ := idx1_0 t
  unfold iblk1
  rw [View.read_apply]
  show V2 m ρ c main_arg2 _ = _
  refine (congrFun (entry1 m ρ c) _).trans (congrArg _ ?_)
  funext a; apply Fin.ext
  match a with
  | ⟨0, _⟩ => show win1_0.index t 0 * 512 + 1 * r.val = 512 * t.val + r.val; rw [hi0]; omega
  | ⟨1, _⟩ => show win1_0.index t 1 * 4096 + 1 * k.val = k.val; rw [hi1]; omega

/-- Entry (r, k) of region 2's input block at point `t`. -/
theorem block2 (c : Dev nD) (t : Fin cfg2.N) (r : Fin 512) (k : Fin 1024) :
    iblk2 (V3 m ρ) c 0 t (ix2 r k) = m ((c : Thread nD τ).loc main_arg3)
      (ix2 (⟨512 * t.val + r.val, by
        have hN : cfg2.N = 8 := N_2
        have := t.isLt; have := r.isLt; omega⟩ : Fin 4096) k) := by
  obtain ⟨hi0, hi1⟩ := idx2_0 t
  unfold iblk2
  rw [View.read_apply]
  show V3 m ρ c main_arg3 _ = _
  refine (congrFun (entry2 m ρ c) _).trans (congrArg _ ?_)
  funext a; apply Fin.ext
  match a with
  | ⟨0, _⟩ => show win2_0.index t 0 * 512 + 1 * r.val = 512 * t.val + r.val; rw [hi0]; omega
  | ⟨1, _⟩ => show win2_0.index t 1 * 1024 + 1 * k.val = k.val; rw [hi1]; omega

end Cert.KernelIdeal.Blocks

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.BlockTotal.lean ====
/-
  The total of a block, the way the kernels' bodies spell it.

  Each body reduces its [R, C] block in two steps with the unit axes kept: first every row over its C lanes (a vector of
  R row sums, viewed as the column [R, 1]), then that column over its R rows (a vector of one entry, viewed as the
  [1, 1] block). On the extended reals, where a reduction has no order of evaluation left in it, the one entry of the
  result is the double sum of the block's entries over rows and lanes.
-/
import proofs.«102672_j31877247271387_1_alg».proof.Proof.LibKeepdims
import proofs.«102672_j31877247271387_1_alg».proof.Proof.LibColumnReads

noncomputable section

namespace Cert.BlockTotal

open Idealize.ShloMosaic Idealize.ShloMosaic.ValueIdx

/-- Rows summed over their lanes, the column of row sums summed over its rows: the entry of the [1, 1] result is
    the sum of all entries of the [R, C] block, rows outside, lanes inside. -/
theorem total_apply {R C : ℕ} (x : FVec Ideal ⟨2, ![R, C]⟩ .f32)
    (h1 : (⟨2, ![R, C]⟩ : Shape).Reduces [1] (⟨1, ![R]⟩ : Shape))
    (h2 : (⟨1, ![R]⟩ : Shape).ShapeCasts ⟨2, ![R, 1]⟩)
    (h3 : (⟨2, ![R, 1]⟩ : Shape).Reduces [0] (⟨1, ![1]⟩ : Shape))
    (h4 : (⟨1, ![1]⟩ : Shape).ShapeCasts ⟨2, ![1, 1]⟩)
    (hφ : FKind.Formats .f32) (hacc : (0x00000000#32 : BitVec 32) = FKind.add.neutral .f32 hφ)
    (y : (⟨2, ![1, 1]⟩ : Shape).Idx) :
    shapeCast ⟨2, ![1, 1]⟩
        (multiReduction .add [0] ⟨1, ![1]⟩
          (shapeCast ⟨2, ![R, 1]⟩ (multiReduction .add [1] ⟨1, ![R]⟩ x 0x00000000#32 h1 hφ hacc) h2)
          0x00000000#32 h3 hφ hacc) h4 y
      = ∑ r : Fin R, ∑ k : Fin C, x (ix2 r k) := by
  obtain ⟨p, q, rfl⟩ : ∃ (p : Fin 1) (q : Fin 1), y = ix2 p q := ⟨y 0, y 1, eq_ix2 y⟩
  rw [Cert.MemAttn.Layout.shapeCast_a_a1_apply, Cert.ColumnReads.multiReduction_add_col]
  refine Finset.sum_congr rfl fun r _ => ?_
  rw [Cert.MemAttn.Layout.shapeCast_a_a1_apply, Cert.MemAttn.Layout.multiReduction_add_row]

end Cert.BlockTotal

end
-- ==== Proof.StepReads.lean ====
/-
  One accumulation step of each kernel body, read on the extended reals.

  Every body adds to its [1, 1] buffer the total of a block: each row summed over its lanes, then the row sums summed
  over the rows. On the extended reals such a total is the double sum of the block's entries, so one step is
  "the buffer's entry plus the double sum over rows and lanes of the entry-wise term":
    * the loss term of a prediction `p` and a label `l`:  l · max(log p, -100) + (1 - l) · max(log1p(0 - p), -100);
    * the count term: 1 if |p - l| < 1/2, else 0 (the comparison bit widened to 32 bits and converted to a float);
    * the square of a weight.
-/
import proofs.«102672_j31877247271387_1_alg».proof.Proof.Gen.KernelIdeal.Skeleton
import proofs.«102672_j31877247271387_1_alg».proof.Proof.BlockTotal
import Idealize.ShloMosaic.Lib.Pipeline.Value
import Idealize.ShloMosaic.PureOps.Ideal.Laws

noncomputable section

open Idealize.ShloMosaic Idealize.ShloMosaic.ValueIdx

namespace Cert.KernelIdeal.StepReads

open Cert.KernelIdeal Cert.KernelIdeal.Gen

/-- The loss of one entry: prediction `p`, label `l`, both logarithms clamped below at -100. -/
def lossTerm (p l : Ideal .f32) : Ideal .f32 :=
  FloatOps.addf (FloatOps.mulf l (FloatOps.maximumf (FloatOps.log p) (Scalar.ofBits .f32 0xC2C80000#32)))
    (FloatOps.mulf (FloatOps.subf (Scalar.ofBits .f32 0x3F800000#32) l)
      (FloatOps.maximumf (FloatOps.log1p (FloatOps.subf (Scalar.ofBits .f32 0x00000000#32) p)) (Scalar.ofBits .f32 0xC2C80000#32)))

/-- Whether one entry counts as correct: the bit of |p - l| < 1/2. -/
def hitBit (p l : Ideal .f32) : BitVec 1 :=
  FloatOps.cmpf .olt (FloatOps.absf (FloatOps.subf p l)) (Scalar.ofBits .f32 0x3F000000#32)

/-- The count term of one entry: the bit, widened to 32 bits, as a float (0 or 1). -/
def hitTerm (p l : Ideal .f32) : Ideal .f32 := FloatOps.sitofp .f32 ((hitBit p l).setWidth 32)

/-- One step of the loss: the buffer's entry plus the block's loss terms summed over rows and lanes. -/
theorem lossStep_apply (x0 x1 : Vec Ideal S512x1024 .f32) (acc : Vec Ideal S1x1 .f32) (y : S1x1.Idx) :
    k0_pay6 (F := Ideal) x0 x1 acc y = acc y + ∑ r : Fin 512, ∑ k : Fin 1024, lossTerm (x0 (ix2 r k)) (x1 (ix2 r k)) := by
  unfold k0_pay6
  refine (congrArg (fun z => (shapeCast S1x1 acc shapeCasts_S1x1_S1x1 y : Ideal .f32) + z)
    (Cert.BlockTotal.total_apply _ reduces_S512x1024_S512 shapeCasts_S512_S512x1 reduces_S512x1_S1 shapeCasts_S1_S1x1 (.inl rfl) rfl y)).trans ?_
  have e4 : k0_pay4 (F := Ideal) x0 = x0 := shapeCast_self x0 _
  have e5 : k0_pay5 (F := Ideal) x1 = x1 := shapeCast_self x1 _
  rw [e4, e5, shapeCast_self]
  rfl

/-- One step of the count: the buffer's entry plus the block's count terms summed over rows and lanes. -/
theorem countStep_apply (x0 x1 : Vec Ideal S512x1024 .f32) (acc : Vec Ideal S1x1 .f32) (y : S1x1.Idx) :
    k0_pay1 (F := Ideal) (k0_pay7 x0 x1) acc y = acc y + ∑ r : Fin 512, ∑ k : Fin 1024, hitTerm (x0 (ix2 r k)) (x1 (ix2 r k)) := by
  unfold k0_pay1 k0_pay7
  refine (congrArg (fun z => (shapeCast S1x1 acc shapeCasts_S1x1_S1x1 y : Ideal .f32) + z)
    (Cert.BlockTotal.total_apply _ reduces_S512x1024_S512 shapeCasts_S512_S512x1 reduces_S512x1_S1 shapeCasts_S1_S1x1 (.inl rfl) rfl y)).trans ?_
  have e4 : k0_pay4 (F := Ideal) x0 = x0 := shapeCast_self x0 _
  have e5 : k0_pay5 (F := Ideal) x1 = x1 := shapeCast_self x1 _
  rw [e4, e5, shapeCast_self]
  rfl

/-- One step of the first sum of squares: the buffer's entry plus the block's squares summed over rows and lanes. -/
theorem sqStep1_apply (x : Vec Ideal S512x4096 .f32) (acc : Vec Ideal S1x1 .f32) (y : S1x1.Idx) :
    k1_pay2 (F := Ideal) x acc y = acc y + ∑ r : Fin 512, ∑ k : Fin 4096, FloatOps.mulf (x (ix2 r k)) (x (ix2 r k)) := by
  unfold k1_pay2
  refine (congrArg (fun z => (shapeCast S1x1 acc shapeCasts_S1x1_S1x1 y : Ideal .f32) + z)
    (Cert.BlockTotal.total_apply _ reduces_S512x4096_S512 shapeCasts_S512_S512x1 reduces_S512x1_S1 shapeCasts_S1_S1x1 (.inl rfl) rfl y)).trans ?_
  rw [shapeCast_self]
  rfl

/-- One step of the second sum of squares, likewise. -/
theorem sqStep2_apply (x : Vec Ideal S512x1024 .f32) (acc : Vec Ideal S1x1 .f32) (y : S1x1.Idx) :
    k2_pay2 (F := Ideal) x acc y = acc y + ∑ r : Fin 512, ∑ k : Fin 1024, FloatOps.mulf (x (ix2 r k)) (x (ix2 r k)) := by
  unfold k2_pay2
  refine (congrArg (fun z => (shapeCast S1x1 acc shapeCasts_S1x1_S1x1 y : Ideal .f32) + z)
    (Cert.BlockTotal.total_apply _ reduces_S512x1024_S512 shapeCasts_S512_S512x1 reduces_S512x1_S1 shapeCasts_S1_S1x1 (.inl rfl) rfl y)).trans ?_
  rw [shapeCast_self]
  rfl

/-- The zero blocks the first points store hold the extended real 0. -/
theorem zero0_apply (y : S1x1.Idx) : k0_pay2 (F := Ideal) y = 0 := Ideal.ofBits_zero_f32
theorem zero0'_apply (y : S1x1.Idx) : k0_pay3 (F := Ideal) y = 0 := Ideal.ofBits_zero_f32
theorem zero1_apply (y : S1x1.Idx) : k1_pay1 (F := Ideal) y = 0 := Ideal.ofBits_zero_f32
theorem zero2_apply (y : S1x1.Idx) : k2_pay1 (F := Ideal) y = 0 := Ideal.ofBits_zero_f32

end Cert.KernelIdeal.StepReads

end
-- ==== Proof.LibRunningSum.lean ====
/-
  A running sum over the points of a grid.

  If a value starts at `z + s 0` and every later point `n + 1` adds `s (n + 1)` to what the point before left, then
  after point `n` it is `z` plus the sum of `s t` over the points `t ≤ n`, and after the last point `z` plus the sum over
  all points. Addition only needs to be commutative and associative, so this holds on the extended reals as well.
-/
import Mathlib.Algebra.BigOperators.Fin
import Mathlib.Data.Fintype.Basic

open scoped BigOperators

namespace Cert.RunningSum

/-- After point `n` the running value is `z` plus the terms of the points up to `n`. -/
theorem running_sum {M : Type*} [AddCommMonoid M] {N : ℕ} (s : Fin N → M) (z : M) (A : (n : ℕ) → n < N → M)
    (h0 : ∀ h, A 0 h = z + s ⟨0, h⟩)
    (hs : ∀ n (h : n + 1 < N), A (n + 1) h = A n (Nat.lt_of_succ_lt h) + s ⟨n + 1, h⟩) :
    ∀ (n : ℕ) (h : n < N), A n h = z + ∑ t ∈ Finset.univ.filter (fun t : Fin N => t.val ≤ n), s t := by
  intro n
  induction n with
  | zero =>
    intro h
    have e : Finset.univ.filter (fun t : Fin N => t.val ≤ 0) = {⟨0, h⟩} := by
      ext t
      simp only [Finset.mem_filter, Finset.mem_univ, true_and, Finset.mem_singleton, Fin.ext_iff]
      omega
    rw [h0 h, e, Finset.sum_singleton]
  | succ n ih =>
    intro h
    have e : Finset.univ.filter (fun t : Fin N => t.val ≤ n + 1)
        = insert ⟨n + 1, h⟩ (Finset.univ.filter (fun t : Fin N => t.val ≤ n)) := by
      ext t
      simp only [Finset.mem_filter, Finset.mem_univ, true_and, Finset.mem_insert, Fin.ext_iff]
      omega
    have hn : (⟨n + 1, h⟩ : Fin N) ∉ Finset.univ.filter (fun t : Fin N => t.val ≤ n) := by
      simp only [Finset.mem_filter, Finset.mem_univ, true_and]
      omega
    rw [hs n h, ih (Nat.lt_of_succ_lt h), e, Finset.sum_insert hn, add_assoc]
    exact congrArg (z + ·) (add_comm _ _)

/-- After the last point the running value is `z` plus the terms of all points. -/
theorem running_sum_last {M : Type*} [AddCommMonoid M] {N : ℕ} (s : Fin N → M) (z : M) (A : (n : ℕ) → n < N → M)
    (h0 : ∀ h, A 0 h = z + s ⟨0, h⟩)
    (hs : ∀ n (h : n + 1 < N), A (n + 1) h = A n (Nat.lt_of_succ_lt h) + s ⟨n + 1, h⟩)
    (n : ℕ) (h : n < N) (hlast : n + 1 = N) : A n h = z + ∑ t : Fin N, s t := by
  rw [running_sum s z A h0 hs n h]
  congr 1
  refine Finset.sum_congr (Finset.filter_true_of_mem fun t _ => ?_) fun _ _ => rfl
  have := t.isLt
  omega

end Cert.RunningSum
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.SumLaws.lean ====
/-
  Two re-indexings of finite sums, independent of any program.

  * `sum_flat_blocks`: a sum over a flat array of 8388608 = 16 · 512 · 1024 entries is the iterated sum over
    16 blocks of 512 rows of 1024 lanes, the entry at (t, r, c) sitting at position (512 t + r) · 1024 + c.
  * `sum_rows_blocks`: a sum over a 4096 × C array is the iterated sum over 8 blocks of 512 rows and the C
    columns, row (t, r) being 512 t + r.
-/
import Idealize.ShloMosaic.Lib.ValueIdx
import proofs.«102672_j31877247271387_1_alg».proof.Proof.LibUnitAxisSums
import Mathlib.Algebra.BigOperators.Fin
import Mathlib.Tactic.Ring

noncomputable section

open scoped BigOperators

namespace Cert.SumLaws

open Idealize.ShloMosaic Idealize.ShloMosaic.ValueIdx

/-- A sum over `N = q * n` consecutive positions, cut into `q` blocks of `n`; the extent is any numeral
    equal to the product. -/
private theorem sum_fin_blocks_eq {M : Type*} [AddCommMonoid M] (N q n : Nat) (h : N = q * n) (g : Fin N → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q
        _ = N := h.symm⟩ := by
  subst h
  exact sum_fin_blocks q n g

/-- A flat array of 8388608 = 16 · 512 · 1024 entries summed as 16 blocks of 512 rows of 1024 lanes: the entry
    at block `t`, row `r`, lane `c` is the one at position `(512 t + r) · 1024 + c`. -/
theorem sum_flat_blocks {M : Type*} [AddCommMonoid M] (g : (⟨1, ![8388608]⟩ : Shape).Idx → M) :
    ∑ j, g j = ∑ t : Fin 16, ∑ r : Fin 512, ∑ c : Fin 1024,
      g (ix1 (⟨(512 * t.val + r.val) * 1024 + c.val, by
        have ht := t.isLt; have hr := r.isLt; have hc := c.isLt; omega⟩ : Fin 8388608)) := by
  rw [sum_idx1, sum_fin_blocks_eq 8388608 8192 1024 rfl, sum_fin_blocks_eq 8192 16 512 rfl]
  refine Finset.sum_congr rfl fun t _ => Finset.sum_congr rfl fun r _ => Finset.sum_congr rfl fun c _ =>
    congrArg g (congrArg ix1 (Fin.ext ?_))
  show 1024 * (512 * t.val + r.val) + c.val = (512 * t.val + r.val) * 1024 + c.val
  omega

/-- A 4096 × C array summed as 8 blocks of 512 rows, each row over its `C` columns: row `r` of block `t`
    is row `512 t + r`. -/
theorem sum_rows_blocks {M : Type*} [AddCommMonoid M] {C : ℕ} (g : (⟨2, ![4096, C]⟩ : Shape).Idx → M) :
    ∑ i, g i = ∑ t : Fin 8, ∑ r : Fin 512, ∑ c : Fin C,
      g (ix2 (⟨512 * t.val + r.val, by have ht := t.isLt; have hr := r.isLt; omega⟩ : Fin 4096) c) := by
  rw [sum_idx2, sum_fin_blocks_eq 4096 8 512 rfl]

end Cert.SumLaws

end
-- ==== Proof.Totals.lean ====
/-
  The three regions' final values on the extended reals, as sums over the whole arguments.

  After its last point each output buffer holds zero plus the block totals of all points (a running sum over the grid).
  Entry (r, k) of the block of point `t` is an entry of the argument: position (512·t + r)·1024 + k of a flat argument,
  or entry (512·t + r, k) of a weight matrix. Cutting the argument's index set into these blocks, the iterated sum over
  points, rows and lanes is the sum over every index of the argument. So:
    the loss buffer ends at the sum over all positions of the loss term,
    the count buffer at the sum over all positions of the count term,
    each square buffer at the sum over all entries of the weight's square.
-/
import proofs.«102672_j31877247271387_1_alg».proof.Proof.Region0
import proofs.«102672_j31877247271387_1_alg».proof.Proof.Region1
import proofs.«102672_j31877247271387_1_alg».proof.Proof.Region2
import proofs.«102672_j31877247271387_1_alg».proof.Proof.Blocks
import proofs.«102672_j31877247271387_1_alg».proof.Proof.StepReads
import proofs.«102672_j31877247271387_1_alg».proof.Proof.LibRunningSum
import proofs.«102672_j31877247271387_1_alg».proof.Proof.SumLaws

noncomputable section

open Idealize.ShloMosaic Idealize.ShloMosaic.TcCoe Idealize.SL.Sem
open Idealize.ShloMosaic.ValueIdx

namespace Cert.KernelIdeal.Totals

open Cert.KernelIdeal Cert.KernelIdeal.Gen Cert.KernelIdeal.StepReads

variable (m : (ℓ : Loc nD τ sig) → Buf (Elt Ideal) ℓ) (ρ : Dev nD → PrngReg)

/-- The four argument arrays on core `c`, as functions of an index: predictions, labels, the two weight matrices. -/
abbrev preds (c : Dev nD) : S8388608.Idx → Ideal .f32 := m ((c : Thread nD τ).loc main_arg0)
abbrev labels (c : Dev nD) : S8388608.Idx → Ideal .f32 := m ((c : Thread nD τ).loc main_arg1)
abbrev weights1 (c : Dev nD) : S4096x4096.Idx → Ideal .f32 := m ((c : Thread nD τ).loc main_arg2)
abbrev weights2 (c : Dev nD) : S4096x1024.Idx → Ideal .f32 := m ((c : Thread nD τ).loc main_arg3)

/-- The square of a weight. -/
abbrev sq (w : Ideal .f32) : Ideal .f32 := FloatOps.mulf w w

/-- The loss buffer ends at the sum of the loss term over all positions of the two flat arguments. -/
theorem loss_total (c : Dev nD) (y : S1x1.Idx) :
    Region0.lossFinal (V1 m ρ) c y
      = ∑ j : S8388608.Idx, lossTerm (preds m c j) (labels m c j) := by
  have hN : cfg0.N = 16 := N_0
  have h := Cert.RunningSum.running_sum_last
    (s := fun t : Fin cfg0.N => ∑ r : Fin 512, ∑ k : Fin 1024,
      lossTerm (iblk0 (V1 m ρ) c 0 t (ix2 r k)) (iblk0 (V1 m ρ) c 1 t (ix2 r k)))
    (z := (0 : Ideal .f32))
    (A := fun n h => Region0.lossAfter (V1 m ρ) c n h y)
    (fun h => by
      show Region0.lossAfter (V1 m ρ) c 0 h y = _
      rw [Region0.lossAfter]
      refine (lossStep_apply (iblk0 (V1 m ρ) c 0 ⟨0, h⟩) (iblk0 (V1 m ρ) c 1 ⟨0, h⟩) (k0_pay2 (F := Ideal)) y).trans ?_
      rw [zero0_apply y])
    (fun n h => by
      show Region0.lossAfter (V1 m ρ) c (n + 1) h y = _
      rw [Region0.lossAfter]
      exact lossStep_apply (iblk0 (V1 m ρ) c 0 ⟨n + 1, h⟩) (iblk0 (V1 m ρ) c 1 ⟨n + 1, h⟩)
        (Region0.lossAfter (V1 m ρ) c n (Nat.lt_of_succ_lt h)) y)
    15 (by omega) (by omega)
  refine h.trans ?_
  rw [zero_add, Cert.SumLaws.sum_flat_blocks
    (fun j => lossTerm (preds m c j) (labels m c j))]
  refine Fintype.sum_equiv (finCongr hN) _ _ fun t => ?_
  refine Finset.sum_congr rfl fun r _ => Finset.sum_congr rfl fun k _ => ?_
  exact congrArg₂ lossTerm (Blocks.block0_0 m ρ c t r k) (Blocks.block0_1 m ρ c t r k)

/-- The count buffer ends at the sum of the count term over all positions. -/
theorem count_total (c : Dev nD) (y : S1x1.Idx) :
    Region0.countFinal (V1 m ρ) c y
      = ∑ j : S8388608.Idx, hitTerm (preds m c j) (labels m c j) := by
  have hN : cfg0.N = 16 := N_0
  have h := Cert.RunningSum.running_sum_last
    (s := fun t : Fin cfg0.N => ∑ r : Fin 512, ∑ k : Fin 1024,
      hitTerm (iblk0 (V1 m ρ) c 0 t (ix2 r k)) (iblk0 (V1 m ρ) c 1 t (ix2 r k)))
    (z := (0 : Ideal .f32))
    (A := fun n h => Region0.countAfter (V1 m ρ) c n h y)
    (fun h => by
      show Region0.countAfter (V1 m ρ) c 0 h y = _
      rw [Region0.countAfter]
      refine (countStep_apply (iblk0 (V1 m ρ) c 0 ⟨0, h⟩) (iblk0 (V1 m ρ) c 1 ⟨0, h⟩) (k0_pay3 (F := Ideal)) y).trans ?_
      rw [zero0'_apply y])
    (fun n h => by
      show Region0.countAfter (V1 m ρ) c (n + 1) h y = _
      rw [Region0.countAfter]
      exact countStep_apply (iblk0 (V1 m ρ) c 0 ⟨n + 1, h⟩) (iblk0 (V1 m ρ) c 1 ⟨n + 1, h⟩)
        (Region0.countAfter (V1 m ρ) c n (Nat.lt_of_succ_lt h)) y)
    15 (by omega) (by omega)
  refine h.trans ?_
  rw [zero_add, Cert.SumLaws.sum_flat_blocks
    (fun j => hitTerm (preds m c j) (labels m c j))]
  refine Fintype.sum_equiv (finCongr hN) _ _ fun t => ?_
  refine Finset.sum_congr rfl fun r _ => Finset.sum_congr rfl fun k _ => ?_
  exact congrArg₂ hitTerm (Blocks.block0_0 m ρ c t r k) (Blocks.block0_1 m ρ c t r k)

/-- The first square buffer ends at the sum of the squares of all entries of the first weight matrix. -/
theorem sq1_total (c : Dev nD) (y : S1x1.Idx) :
    Region1.sqFinal (V2 m ρ) c y
      = ∑ i : S4096x4096.Idx, sq (weights1 m c i) := by
  have hN : cfg1.N = 8 := N_1
  have h := Cert.RunningSum.running_sum_last
    (s := fun t : Fin cfg1.N => ∑ r : Fin 512, ∑ k : Fin 4096,
      sq (iblk1 (V2 m ρ) c 0 t (ix2 r k)))
    (z := (0 : Ideal .f32))
    (A := fun n h => Region1.sqAfter (V2 m ρ) c n h y)
    (fun h => by
      show Region1.sqAfter (V2 m ρ) c 0 h y = _
      rw [Region1.sqAfter]
      refine (sqStep1_apply (iblk1 (V2 m ρ) c 0 ⟨0, h⟩) (k1_pay1 (F := Ideal)) y).trans ?_
      rw [zero1_apply y])
    (fun n h => by
      show Region1.sqAfter (V2 m ρ) c (n + 1) h y = _
      rw [Region1.sqAfter]
      exact sqStep1_apply (iblk1 (V2 m ρ) c 0 ⟨n + 1, h⟩) (Region1.sqAfter (V2 m ρ) c n (Nat.lt_of_succ_lt h)) y)
    7 (by omega) (by omega)
  refine h.trans ?_
  rw [zero_add, Cert.SumLaws.sum_rows_blocks
    (fun i => sq (weights1 m c i))]
  refine Fintype.sum_equiv (finCongr hN) _ _ fun t => ?_
  refine Finset.sum_congr rfl fun r _ => Finset.sum_congr rfl fun k _ => ?_
  exact congrArg sq (Blocks.block1 m ρ c t r k)

/-- The second square buffer ends at the sum of the squares of all entries of the second weight matrix. -/
theorem sq2_total (c : Dev nD) (y : S1x1.Idx) :
    Region2.sqFinal (V3 m ρ) c y
      = ∑ i : S4096x1024.Idx, sq (weights2 m c i) := by
  have hN : cfg2.N = 8 := N_2
  have h := Cert.RunningSum.running_sum_last
    (s := fun t : Fin cfg2.N => ∑ r : Fin 512, ∑ k : Fin 1024,
      sq (iblk2 (V3 m ρ) c 0 t (ix2 r k)))
    (z := (0 : Ideal .f32))
    (A := fun n h => Region2.sqAfter (V3 m ρ) c n h y)
    (fun h => by
      show Region2.sqAfter (V3 m ρ) c 0 h y = _
      rw [Region2.sqAfter]
      refine (sqStep2_apply (iblk2 (V3 m ρ) c 0 ⟨0, h⟩) (k2_pay1 (F := Ideal)) y).trans ?_
      rw [zero2_apply y])
    (fun n h => by
      show Region2.sqAfter (V3 m ρ) c (n + 1) h y = _
      rw [Region2.sqAfter]
      exact sqStep2_apply (iblk2 (V3 m ρ) c 0 ⟨n + 1, h⟩) (Region2.sqAfter (V3 m ρ) c n (Nat.lt_of_succ_lt h)) y)
    7 (by omega) (by omega)
  refine h.trans ?_
  rw [zero_add, Cert.SumLaws.sum_rows_blocks
    (fun i => sq (weights2 m c i))]
  refine Fintype.sum_equiv (finCongr hN) _ _ fun t => ?_
  refine Finset.sum_congr rfl fun r _ => Finset.sum_congr rfl fun k _ => ?_
  exact congrArg sq (Blocks.block2 m ρ c t r k)

end Cert.KernelIdeal.Totals

end
-- ==== Proof.LibCountBridge.lean ====
/-
  A count taken in floating point and converted to an integer, against the same count taken in integers.

  For fewer than 2 ^ 31 one-bit flags: widen each flag to 32 bits; the real sum of the widened values (each 0 or 1),
  converted to a signed 32-bit word by truncation and clamping, is the same word as the 32-bit wrapping sum of the
  widened values. Both are the number of flags that are set, which is below 2 ^ 31 and so survives both routes.
-/
import Idealize.ShloMosaic.PureOps.Ideal
import Idealize.ShloMosaic.PureOps.Reduce
import Mathlib.Algebra.BigOperators.Fin
import Mathlib.Algebra.Order.Floor.Ring
import Mathlib.Data.EReal.Basic

noncomputable section

open scoped BigOperators

namespace Cert.CountBridge

open Idealize.ShloMosaic

/-- A one-bit flag widened to 32 bits is the 32-bit word of its value (0 or 1). -/
theorem setWidth_flag_eq_ofNat (x : BitVec 1) : x.setWidth 32 = BitVec.ofNat 32 x.toNat := by
  apply BitVec.eq_of_toNat_eq
  have hx : x.toNat < 2 := x.isLt
  rw [BitVec.toNat_setWidth_of_le (by omega), BitVec.toNat_ofNat]
  omega

/-- The signed value of a one-bit flag widened to 32 bits is the flag's value (0 or 1). -/
theorem toInt_setWidth_flag (x : BitVec 1) : (x.setWidth 32).toInt = (x.toNat : ℤ) := by
  have hx : x.toNat < 2 := x.isLt
  have h : (x.setWidth 32).toNat = x.toNat := BitVec.toNat_setWidth_of_le (by omega)
  rw [BitVec.toInt_eq_toNat_of_lt (by rw [h]; omega), h]

/-- The embedding of the naturals into the extended reals (through the reals) carries finite sums to finite
    sums. -/
theorem coe_sum_nat {ι : Type*} (s : Finset ι) (f : ι → ℕ) :
    ∑ i ∈ s, (((f i : ℕ) : ℝ) : EReal) = (((∑ i ∈ s, f i : ℕ) : ℝ) : EReal) := by
  classical
  induction s using Finset.induction_on with
  | empty => simp
  | insert a s ha ih => rw [Finset.sum_insert ha, Finset.sum_insert ha, ih, Nat.cast_add, EReal.coe_add]

/-- Adding the widened flags of a finite set with 32-bit wrapping addition gives the 32-bit word of the number
    of set flags. -/
theorem fold_addi_flags {ι : Type*} [DecidableEq ι] (s : Finset ι) (b : ι → BitVec 1) :
    s.fold IntOp.addi (0#32) (fun i => (b i).setWidth 32) = BitVec.ofNat 32 (∑ i ∈ s, (b i).toNat) := by
  induction s using Finset.induction_on with
  | empty => rfl
  | insert a s ha ih =>
    rw [Finset.fold_insert ha, ih, Finset.sum_insert ha, BitVec.ofNat_add, setWidth_flag_eq_ofNat]
    rfl

/-- For fewer than 2 ^ 31 one-bit flags, the real sum of their widened values, converted to a signed 32-bit
    word, is the 32-bit wrapping sum of the widened values: both are the number `n` of set flags, and
    `0 ≤ n < 2 ^ 31` survives truncation and the clamp to the signed range. -/
theorem count_bridge {ι : Type*} [Fintype ι] (hcard : Fintype.card ι < 2 ^ 31) (b : ι → BitVec 1) :
    Ideal.fptosi 32 (∑ i, ((((b i).setWidth 32).toInt : ℝ) : EReal))
      = (Finset.univ : Finset ι).fold IntOp.addi (0#32) (fun i => (b i).setWidth 32) := by
  classical
  have hn : ∑ i, (b i).toNat < 2 ^ 31 := by
    calc ∑ i, (b i).toNat ≤ ∑ _i : ι, 1 :=
          Finset.sum_le_sum fun i _ => by have hi : (b i).toNat < 2 := (b i).isLt; omega
      _ = Fintype.card ι := by simp
      _ < 2 ^ 31 := hcard
  have hsum : ∑ i, ((((b i).setWidth 32).toInt : ℝ) : EReal)
      = (((∑ i, (b i).toNat : ℕ) : ℝ) : EReal) := by
    rw [← coe_sum_nat]
    refine Finset.sum_congr rfl fun i _ => ?_
    rw [toInt_setWidth_flag, Int.cast_natCast]
  rw [hsum, fold_addi_flags, Ideal.fptosi, Ideal.toIntClamped_coe, if_pos (Nat.cast_nonneg _),
    Int.floor_natCast, min_eq_right (by omega), max_eq_right (by omega), BitVec.ofInt_natCast]

end Cert.CountBridge

end
-- ==== Proof.Bridge.lean ====
/-
  The kernel program's two results as functions of its arguments, on the extended reals.

  The float result is the shared scalar arithmetic of three total sums over the arguments: the loss term over all
  positions of the two flat arguments, and the squares of all entries of each weight matrix. The integer result is the
  count: the float sum of the count terms (each 0 or 1) converted to a signed 32-bit integer, which — there being
  8388608 < 2³¹ positions — is the wrapping 32-bit sum of the widened comparison bits.
-/
import proofs.«102672_j31877247271387_1_alg».proof.Proof.Tail
import proofs.«102672_j31877247271387_1_alg».proof.Proof.Totals
import proofs.«102672_j31877247271387_1_alg».proof.Proof.LibCountBridge

noncomputable section

open Idealize.ShloMosaic Idealize.ShloMosaic.TcCoe Idealize.SL.Sem
open Idealize.ShloMosaic.ValueIdx

namespace Cert.KernelIdeal.Bridge

open Cert.KernelIdeal Cert.KernelIdeal.Gen
open Cert.KernelIdeal.StepReads (lossTerm hitBit hitTerm)

variable (m : (ℓ : Loc nD τ sig) → Buf (Elt Ideal) ℓ) (ρ : Dev nD → PrngReg)

/-- There are 8388608 positions, fewer than 2³¹. -/
theorem card_positions : Fintype.card (⟨1, ![8388608]⟩ : Shape).Idx < 2 ^ 31 := by
  rw [Fintype.card_congr (idxEquiv1 (n := 8388608)), Fintype.card_fin]
  norm_num

/-- The float result of the kernel program. -/
theorem float_value (c : Dev nD) :
    (W5 m ρ c (Proc.devRef .tc main_v15) : S_.Idx → Ideal .f32)
      = Cert.Combine.combine
          (fun _ => ∑ j : S8388608.Idx, lossTerm (Totals.preds m c j) (Totals.labels m c j))
          (fun _ => ∑ i : S4096x4096.Idx, Totals.sq (Totals.weights1 m c i))
          (fun _ => ∑ i : S4096x1024.Idx, Totals.sq (Totals.weights2 m c i)) := by
  have ea : shapeCast S_ (Region0.lossFinal (V1 m ρ) c) shapeCasts_S1x1_S_
      = fun _ => ∑ j : S8388608.Idx, lossTerm (Totals.preds m c j) (Totals.labels m c j) :=
    funext fun i => Totals.loss_total m ρ c _
  have eb : shapeCast S_ (Region1.sqFinal (V2 m ρ) c) shapeCasts_S1x1_S_
      = fun _ => ∑ i : S4096x4096.Idx, Totals.sq (Totals.weights1 m c i) :=
    funext fun i => Totals.sq1_total m ρ c _
  have ed : shapeCast S_ (Region2.sqFinal (V3 m ρ) c) shapeCasts_S1x1_S_
      = fun _ => ∑ i : S4096x1024.Idx, Totals.sq (Totals.weights2 m c i) :=
    funext fun i => Totals.sq2_total m ρ c _
  rw [Tail.float_result, ea, eb, ed]

/-- The integer result of the kernel program. -/
theorem int_value (c : Dev nD) :
    (W5 m ρ c (Proc.devRef .tc main_v17) : S_.Idx → BitVec 32)
      = fun _ => (Finset.univ : Finset S8388608.Idx).fold IntOp.addi (0#32)
          (fun j => (hitBit (Totals.preds m c j) (Totals.labels m c j)).setWidth 32) := by
  rw [Tail.int_result]
  funext i
  show Ideal.fptosi 32 (shapeCast S_ (Region0.countFinal (V1 m ρ) c) shapeCasts_S1x1_S_ i) = _
  rw [show shapeCast S_ (Region0.countFinal (V1 m ρ) c) shapeCasts_S1x1_S_ i
      = ∑ j : S8388608.Idx, hitTerm (Totals.preds m c j) (Totals.labels m c j)
    from Totals.count_total m ρ c _]
  exact Cert.CountBridge.count_bridge card_positions
    (fun j => hitBit (Totals.preds m c j) (Totals.labels m c j))

end Cert.KernelIdeal.Bridge

end
-- ==== Proof.RefReads.lean ====
/-
  The reference's two results on the extended reals, in the kernel's vocabulary.

  Entry by entry the reference's loss term is the kernel's: the host's logarithm and log1p are the kernel's functions
  there, `max` commutes, and the host's negation `-p` is the kernel's `0 - p`. Its comparison bit |p - l| < 1/2 is the
  kernel's bit. A host sum into a scalar is the initial zero plus the sum over every index. So the float result is the
  shared scalar arithmetic of three total sums, and the integer result is the wrapping 32-bit sum of the widened bits.
-/
import proofs.«102672_j31877247271387_1_alg».proof.Proof.Gen.ReferenceIdeal.Read
import proofs.«102672_j31877247271387_1_alg».proof.Proof.StepReads
import proofs.«102672_j31877247271387_1_alg».proof.Proof.Combine
import Idealize.ShloMosaic.PureOps.Reduce
import Idealize.ShloMosaic.PureOps.Ideal.Laws

noncomputable section

open Idealize.ShloMosaic

namespace Cert.ReferenceIdeal.RefReads

open Cert.ReferenceIdeal Cert.ReferenceIdeal.Gen Cert.ReferenceIdeal.Read
open Cert.KernelIdeal.StepReads (lossTerm hitBit hitTerm)

/-- The reference's spelling of the loss of one entry is the kernel's. -/
theorem loss_scalar (p l : Ideal .f32) :
    FloatOps.addf (FloatOps.mulf l (FloatOps.maximumf (FloatOps.ofBits .f32 0xC2C80000#32) (FloatOps.hostUnary .log p)))
      (FloatOps.mulf (FloatOps.subf (FloatOps.ofBits .f32 0x3F800000#32) l)
        (FloatOps.maximumf (FloatOps.ofBits .f32 0xC2C80000#32) (FloatOps.hostUnary .log1p (FloatOps.hostNegf p))))
      = lossTerm p l := by
  unfold lossTerm
  have e2 : FloatOps.hostNegf p = FloatOps.subf (Scalar.ofBits (F := Ideal) .f32 0x00000000#32) p := by
    show -p = Ideal.ofBits .f32 0x00000000#32 - p
    rw [Ideal.ofBits_zero_f32, zero_sub]
  have e4 : ∀ a b : Ideal .f32, FloatOps.maximumf a b = FloatOps.maximumf b a := fun a b => max_comm a b
  rw [e2, e4 (FloatOps.ofBits .f32 0xC2C80000#32) (FloatOps.hostUnary .log p),
    e4 (FloatOps.ofBits .f32 0xC2C80000#32) (FloatOps.hostUnary .log1p _)]
  rfl

/-- Entry `j` of the array the reference sums for the loss. -/
theorem loss_entry (x0 x1 : S8388608.Idx → Ideal .f32) (j : S8388608.Idx) :
    val_main_v9 (F := Ideal) x0 x1 j = lossTerm (x0 j) (x1 j) := by
  rw [val_main_v9_apply, val_main_v5_apply, val_main_v8_apply, val_main_v1_apply, val_main_v4_apply,
    val_main_v7_apply, val_main_v0_apply, val_main_v3_apply, val_main_v2_apply, val_main_call0_v1_apply,
    val_main_call1_v1_apply, val_main_v6_apply, val_main_call0_v0_apply, val_main_call1_v0_apply, val_main_cst_apply,
    val_main_cst_0_apply, val_main_cst_1_apply]
  exact loss_scalar (x0 j) (x1 j)

/-- Entry `j` of the bits the reference counts. -/
theorem hit_entry (x0 x1 : S8388608.Idx → Ideal .f32) (j : S8388608.Idx) :
    val_main_v26 (F := Ideal) x0 x1 j = hitBit (x0 j) (x1 j) := by
  rw [val_main_v26_apply, val_main_v24_apply, val_main_v23_apply, val_main_v25_apply, val_main_cst_10_apply]
  rfl

/-- The float result: the shared scalar arithmetic of the three total sums. -/
theorem float_result (x0 x1 : S8388608.Idx → Ideal .f32)
    (x2 : S4096x4096.Idx → Ideal .f32) (x3 : S4096x1024.Idx → Ideal .f32) :
    val_main_v22 (F := Ideal) x0 x1 x2 x3
      = Cert.Combine.combine (fun _ => ∑ j : S8388608.Idx, lossTerm (x0 j) (x1 j))
          (fun _ => ∑ i : S4096x4096.Idx, FloatOps.mulf (F := Ideal) (φ := .f32) (x2 i) (x2 i))
          (fun _ => ∑ i : S4096x1024.Idx, FloatOps.mulf (F := Ideal) (φ := .f32) (x3 i) (x3 i)) := by
  have ea : val_main_v10 (F := Ideal) x0 x1 = fun _ => ∑ j : S8388608.Idx, lossTerm (x0 j) (x1 j) := by
    funext i
    rw [val_main_v10_apply, val_main_cst_2_apply]
    show Ideal.ofBits .f32 0x00000000#32 + _ = _
    rw [Ideal.ofBits_zero_f32, zero_add]
    exact Finset.sum_congr rfl fun j _ => loss_entry x0 x1 j
  have eb : val_main_v14 (F := Ideal) x2 = fun _ => ∑ i : S4096x4096.Idx, FloatOps.mulf (F := Ideal) (φ := .f32) (x2 i) (x2 i) := by
    funext i
    rw [val_main_v14_apply, val_main_cst_4_apply]
    show Ideal.ofBits .f32 0x00000000#32 + _ = _
    rw [Ideal.ofBits_zero_f32, zero_add]
    rfl
  have ed : val_main_v18 (F := Ideal) x3 = fun _ => ∑ i : S4096x1024.Idx, FloatOps.mulf (F := Ideal) (φ := .f32) (x3 i) (x3 i) := by
    funext i
    rw [val_main_v18_apply, val_main_cst_7_apply]
    show Ideal.ofBits .f32 0x00000000#32 + _ = _
    rw [Ideal.ofBits_zero_f32, zero_add]
    rfl
  rw [← ea, ← eb, ← ed]
  rfl

/-- The integer result: the wrapping 32-bit sum, from zero, of the widened comparison bits of all positions. -/
theorem int_result (x0 x1 : S8388608.Idx → Ideal .f32) :
    val_main_v28 (F := Ideal) x0 x1
      = fun _ => (Finset.univ : Finset S8388608.Idx).fold IntOp.addi (0#32) (fun j => (hitBit (x0 j) (x1 j)).setWidth 32) := by
  funext i
  unfold val_main_v28
  rw [Host.reduce_eq_fold]
  have hall : (Finset.univ.filter fun j : S8388608.Idx => reducesTo_S8388608_S_d0.drop j = i) = Finset.univ :=
    Finset.filter_true_of_mem fun j _ => funext fun d => d.elim0
  rw [hall]
  refine congrArg (fun f => (Finset.univ : Finset S8388608.Idx).fold IntOp.addi (0#32) f) (funext fun j => ?_)
  rw [val_main_v27_apply, hit_entry]

end Cert.ReferenceIdeal.RefReads

end
-- ==== Proof.lean ====
/-
  The kernel computes a clamped binary cross-entropy loss with an L2 penalty, and an accuracy count; the reference
  computes the same two numbers with whole-array operations.

  Kernel. The two flat inputs of 8388608 entries are viewed as [8192, 1024] and streamed through a grid of 16 blocks of
  512 rows; a [1, 1] output accumulates, block by block from zero, the total of
      l · max(log p, -100) + (1 - l) · max(log1p(0 - p), -100),
  and a second one the number of entries with |p - l| < 1/2 (each counted as the float 1). Two more grids of 8 blocks
  accumulate the sums of squares of the two weight matrices. The host then forms
      -(loss / 2²³) + ((c₁ · sq₁) / 2²⁴ + (c₂ · sq₂) / 2²⁴)
  and converts the count to a signed 32-bit integer.
  Reference. The same entry-wise loss term summed over the flat array by one reduction, the same scalar arithmetic
  with the same constants, and the count as an integer sum of the comparison bits.

  On the extended reals a sum has no order, so a total taken block by block, row by row and lane by lane is the sum over
  every position; the host's `-p` is the kernel's `0 - p`, `max` commutes, and the host's logarithms are the kernel's.
  The count is at most 8388608 < 2³¹, so the float count converted to an integer and the wrapping integer sum of the
  bits are the same word. No step uses that the inputs are finite.

  The kernel's frames are the generated ones; its run with the results kept is read off the same generated data
  (RunValues, Region0–2, Tail); the reference's run and its reading one operation at a time are the generated modules
  Run and Read. The idealizing pass rewrote nothing, so `preserves` is `True`.
-/
import proofs.«102672_j31877247271387_1_alg».proof.Defs
import proofs.«102672_j31877247271387_1_alg».proof.Proof.Gen.Kernel
import proofs.«102672_j31877247271387_1_alg».proof.Proof.Gen.Kernel.Skeleton
import proofs.«102672_j31877247271387_1_alg».proof.Proof.Gen.Kernel.Launch
import proofs.«102672_j31877247271387_1_alg».proof.Proof.Gen.Kernel.Points
import proofs.«102672_j31877247271387_1_alg».proof.Proof.Gen.Kernel.Frame
import proofs.«102672_j31877247271387_1_alg».proof.Proof.Gen.KernelIdeal
import proofs.«102672_j31877247271387_1_alg».proof.Proof.Gen.KernelIdeal.Skeleton
import proofs.«102672_j31877247271387_1_alg».proof.Proof.Gen.KernelIdeal.Launch
import proofs.«102672_j31877247271387_1_alg».proof.Proof.Gen.KernelIdeal.Points
import proofs.«102672_j31877247271387_1_alg».proof.Proof.Gen.KernelIdeal.Frame
import proofs.«102672_j31877247271387_1_alg».proof.Proof.Gen.ReferenceIdeal
import proofs.«102672_j31877247271387_1_alg».proof.Proof.Gen.Pre_finite_inputs
import proofs.«102672_j31877247271387_1_alg».proof.Proof.Gen.ReferenceIdeal.Run
import proofs.«102672_j31877247271387_1_alg».proof.Proof.Gen.ReferenceIdeal.Read
import proofs.«102672_j31877247271387_1_alg».proof.Proof.RunValues
import proofs.«102672_j31877247271387_1_alg».proof.Proof.Bridge
import proofs.«102672_j31877247271387_1_alg».proof.Proof.RefReads
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel :=
  fun m ρ _ => Cert.Kernel.Gen.frame m ρ

/-- So does the idealized kernel. -/
theorem frame_ki : Cert.frame_KernelIdeal :=
  fun m ρ _ => Cert.KernelIdeal.Gen.frame m ρ

/-- The reference runs and leaves its arguments unchanged: its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- Both programs end with the float result at the shared scalar arithmetic of the three total sums and the integer
    result at the wrapping sum of the comparison bits, of arguments that agree. -/
theorem algebraic : Cert.algebraic_KernelIdeal_ReferenceIdeal := by
  intro m ρ m' ρ' _ hagree
  refine ⟨fun c => Cert.KernelIdeal.Gen.W5 m ρ c (Proc.devRef .tc Cert.KernelIdeal.main_v15),
    fun c => Cert.KernelIdeal.Gen.W5 m ρ c (Proc.devRef .tc Cert.KernelIdeal.main_v17),
    Cert.KernelIdeal.RunValues.run_results (F := Ideal) m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.ReferenceIdeal.Read.val_main_v22_eq, Cert.ReferenceIdeal.RefReads.float_result,
      (hagree c).1, (hagree c).2.1, (hagree c).2.2.1, (hagree c).2.2.2]
    exact (Cert.KernelIdeal.Bridge.float_value m ρ c).symm
  · refine (h c).2.1.trans ?_
    rw [Cert.ReferenceIdeal.Read.val_main_v28_eq, Cert.ReferenceIdeal.RefReads.int_result,
      (hagree c).1, (hagree c).2.1]
    exact (Cert.KernelIdeal.Bridge.int_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
